-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S3x512x512 : Shape := ⟨3, ![3, 512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S3x512x512 : S_.BroadcastsInDim S3x512x512 (![] : Fin 0 → Fin S3x512x512.rank)
  reducesTo_S3x512x512_S_d0_1_2 : S3x512x512.ReducesTo [0, 1, 2] S_

variable [Facts]

def fn {F : FTy → Type} [FloatOps F] (main_arg0 : FVec F S8x2048x512 .f32) (main_arg1 : FVec F S3x512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S3x512x512 .f32 := Host.absf main_arg1
  let main_cst_0 : FVec F S_ .f32 := constant S_ .f32 0x7F800000#32
  let main_v5 : FVec F S3x512x512 .f32 := broadcastInDim S3x512x512 ![] bcast_S_S3x512x512 main_cst_0
  let main_v6 : IVec S3x512x512 1 := cmpf .olt main_v4 main_v5
  let main_c_1 : IVec S_ 1 := constantI S_ 1 1#1
  let main_v7 : IVec S_ 1 := (fun x v => Host.reduce IntOp.andi x v reducesTo_S3x512x512_S_d0_1_2 h_S_) main_v6 main_c_1
  let main_v8 : IVec S_ 1 := andi main_v3 main_v7
  main_v8
-- ==== Kernel.lean ====
abbrev S8x2048x512 : Shape := ⟨3, ![8, 2048, 512]⟩
abbrev S3x512x512 : Shape := ⟨3, ![3, 512, 512]⟩
abbrev S1x2048x512 : Shape := ⟨3, ![1, 2048, 512]⟩
abbrev S1x256x512 : Shape := ⟨3, ![1, 256, 512]⟩
abbrev S2048x512 : Shape := ⟨2, ![2048, 512]⟩
abbrev S1x512x512 : Shape := ⟨3, ![1, 512, 512]⟩
abbrev S512x512 : Shape := ⟨2, ![512, 512]⟩
abbrev S256x512 : Shape := ⟨2, ![256, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x512, .f32⟩
  | .hbm, ⟨1, _⟩ => ⟨S3x512x512, .f32⟩
  | .hbm, ⟨2, _⟩ => ⟨S3x512x512, .bf16⟩
  | .hbm, ⟨3, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S3x512x512, .bf16⟩
  | .local _ .vmem, ⟨3, _⟩ => ⟨S1x256x512, .f32⟩
  | .local _ .vmem, ⟨4, _⟩ => ⟨S1x256x512, .f32⟩
  | .local _ .vmem, ⟨5, _⟩ => ⟨S2048x512, .bf16⟩
  | .local _ .vmem, ⟨6, _⟩ => ⟨S2048x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S3x512x512_S1x512x512_1_0_0 : ∀ a, (![1, 0, 0] : Fin 3 → Nat) a + S1x512x512.size a ≤ S3x512x512.size a
  h_S1x512x512 : 0 < S1x512x512.numel
  shapeCasts_S1x512x512_S512x512 : S1x512x512.ShapeCasts S512x512
  inb_S3x512x512_S1x512x512_2_0_0 : ∀ a, (![2, 0, 0] : Fin 3 → Nat) a + S1x512x512.size a ≤ S3x512x512.size a
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  h_S1x256x512 : 0 < S1x256x512.numel
  shapeCasts_S1x256x512_S256x512 : S1x256x512.ShapeCasts S256x512
  inb_S3x512x512_S1x512x512_0_0_0 : ∀ a, (![0, 0, 0] : Fin 3 → Nat) a + S1x512x512.size a ≤ S3x512x512.size a
  transposes_S2048x512_p1_0_S512x2048 : S2048x512.Transposes [1, 0] S512x2048
  reduces_S256x2048_S256 : S256x2048.Reduces [1] S256
  shapeCasts_S256_S256x1 : S256.ShapeCasts S256x1
  broadcasts_S256x1_S256x2048 : S256x1.Broadcasts S256x2048
  inb_S1x256x512_S1x256x512_0_0_0 : ∀ a, (![0, 0, 0] : Fin 3 → Nat) a + S1x256x512.size a ≤ S1x256x512.size a
  shapeCasts_S256x512_S1x256x512 : S256x512.ShapeCasts S1x256x512
  dot_S2048x512_S512x512_S2048x512_1_0_0_1_n_n_wf : DotDims.WF S2048x512 S512x512 S2048x512 [1] [0] [0] [1] [] []
  dot_S256x512_S512x512_S256x512_1_0_0_1_n_n_wf : DotDims.WF S256x512 S512x512 S256x512 [1] [0] [0] [1] [] []
  dot_S256x512_S512x2048_S256x2048_1_0_0_1_n_n_wf : DotDims.WF S256x512 S512x2048 S256x2048 [1] [0] [0] [1] [] []
  dot_S256x2048_S2048x512_S256x512_1_0_0_1_n_n_wf : DotDims.WF S256x2048 S2048x512 S256x512 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512x512.size a ≤ S3x512x512.size a
  hwx0_1 : ∀ i : grid0.Coords, EltTy.bits .bf16 = 32 ∨ (Rect.block (s := S3x512x512) S3x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S8x2048x512.size a
  hwx0_2 : ∀ i : grid0.Coords, EltTy.bits .f32 = 32 ∨ (Rect.block (s := S8x2048x512) S1x256x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S3x512x512 : Shape := ⟨3, ![3, 512, 512]⟩
abbrev S1x512x512 : Shape := ⟨3, ![1, 512, 512]⟩
abbrev S512x512 : Shape := ⟨2, ![512, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S3x512x512, .f32⟩
  | .hbm, ⟨2, _⟩ => ⟨S1x512x512, .f32⟩
  | .hbm, ⟨3, _⟩ => ⟨S512x512, .f32⟩
  | .hbm, ⟨4, _⟩ => ⟨S8x2048x512, .f32⟩
  | .hbm, ⟨5, _⟩ => ⟨S1x512x512, .f32⟩
  | .hbm, ⟨6, _⟩ => ⟨S512x512, .f32⟩
  | .hbm, ⟨7, _⟩ => ⟨S8x2048x512, .f32⟩
  | .hbm, ⟨8, _⟩ => ⟨S1x512x512, .f32⟩
  | .hbm, ⟨9, _⟩ => ⟨S512x512, .f32⟩
  | .hbm, ⟨10, _⟩ => ⟨S8x2048x512, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  slices_S3x512x512_S1x512x512_0_0_0 : S3x512x512.Slices ![0, 0, 0] S1x512x512
  shapeCasts_S1x512x512_S512x512 : S1x512x512.ShapeCasts S512x512
  slices_S3x512x512_S1x512x512_1_0_0 : S3x512x512.Slices ![1, 0, 0] S1x512x512
  slices_S3x512x512_S1x512x512_2_0_0 : S3x512x512.Slices ![2, 0, 0] S1x512x512
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_0_01_1_n_n_wf : DotDims.WF S8x2048x512 S512x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.KernelPieces.lean ====
/-
  What each case of the kernel's body leaves behind, as values, at any float instance. At a batch entry's first query
  tile the body stores the key rows and the value rows of the entry into its two scratch buffers — each a function of the
  resident input block and of one of the three weight matrices, read out of the weight block at its leading index 1 or 2 —
  and then computes the result tile from the tile's rows of the input block, the weight matrix at leading index 0, and the
  two scratch buffers it has just filled. At every other tile it stores nothing into the scratch buffers and computes
  the result tile from what they already hold.
-/
import proofs.«126263_j22789096472642_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The weight matrix at leading index `0`, `1`, `2` of the weight block: the three rectangles the body loads. -/
abbrev rW0 : Rect S3x512x512 := Rect.unit (s := S3x512x512) ![0, 0, 0] S1x512x512.size inb_S3x512x512_S1x512x512_0_0_0
abbrev rW1 : Rect S3x512x512 := Rect.unit (s := S3x512x512) ![1, 0, 0] S1x512x512.size inb_S3x512x512_S1x512x512_1_0_0
abbrev rW2 : Rect S3x512x512 := Rect.unit (s := S3x512x512) ![2, 0, 0] S1x512x512.size inb_S3x512x512_S1x512x512_2_0_0
/-- The query tile's 256 rows of the resident input block, at the offset the grid position gives. -/
abbrev rQ (i : grid0.Coords) : Rect S1x2048x512 := Rect.unit (s := S1x2048x512) (k0_off1 i) S1x256x512.size (k0_off1_inb i)

/-- First tile of a batch entry: the key rows stored. -/
theorem keys_A (c : Dev nD) (i : grid0.Coords) (arg2 : Memref sig .tc .vmem S1x2048x512 .f32) (harg2 : arg2.IsWhole) (arg3 : Memref sig .tc .vmem S3x512x512 .bf16) (harg3 : arg3.IsWhole) (arg4 : Memref sig .tc .vmem S1x256x512 .f32) (harg4 : arg4.IsWhole) (arg5 : Memref sig .tc .vmem S2048x512 .bf16) (harg5 : arg5.IsWhole) (arg6 : Memref sig .tc .vmem S2048x512 .bf16) (harg6 : arg6.IsWhole) (hc0 : cond0_0 i)
    (x0 : Vec F S1x2048x512 .f32) (x1 : Vec F S3x512x512 .bf16) :
    sout0_A_0 c i arg2 harg2 arg3 harg3 arg4 harg4 arg5 harg5 arg6 harg6 hc0 x0 x1 = k0_pay2 x0 (View.ld x1 rW1) := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, harg3.read_unread, View.ld_unit_zero (S := S1x2048x512) hz3]

/-- First tile of a batch entry: the value rows stored. -/
theorem vals_A (c : Dev nD) (i : grid0.Coords) (arg2 : Memref sig .tc .vmem S1x2048x512 .f32) (harg2 : arg2.IsWhole) (arg3 : Memref sig .tc .vmem S3x512x512 .bf16) (harg3 : arg3.IsWhole) (arg4 : Memref sig .tc .vmem S1x256x512 .f32) (harg4 : arg4.IsWhole) (arg5 : Memref sig .tc .vmem S2048x512 .bf16) (harg5 : arg5.IsWhole) (arg6 : Memref sig .tc .vmem S2048x512 .bf16) (harg6 : arg6.IsWhole) (hc0 : cond0_0 i)
    (x0 : Vec F S1x2048x512 .f32) (x1 : Vec F S3x512x512 .bf16) :
    sout0_A_1 c i arg2 harg2 arg3 harg3 arg4 harg4 arg5 harg5 arg6 harg6 hc0 x0 x1 = k0_pay3 x0 (View.ld x1 rW2) := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, harg3.read_unread, View.ld_unit_zero (S := S1x2048x512) hz3]

/-- Any later tile: the result tile, from the scratch contents `xs0`, `xs1` the tile before left. -/
theorem tile_B (c : Dev nD) (i : grid0.Coords) (arg2 : Memref sig .tc .vmem S1x2048x512 .f32) (harg2 : arg2.IsWhole) (arg3 : Memref sig .tc .vmem S3x512x512 .bf16) (harg3 : arg3.IsWhole) (arg4 : Memref sig .tc .vmem S1x256x512 .f32) (harg4 : arg4.IsWhole) (arg5 : Memref sig .tc .vmem S2048x512 .bf16) (harg5 : arg5.IsWhole) (arg6 : Memref sig .tc .vmem S2048x512 .bf16) (harg6 : arg6.IsWhole) (hc0 : ¬cond0_0 i)
    (x0 : Vec F S1x2048x512 .f32) (x1 : Vec F S3x512x512 .bf16) (xs0 xs1 : Vec F S2048x512 .bf16) :
    out0_B_2 c i arg2 harg2 arg3 harg3 arg4 harg4 arg5 harg5 arg6 harg6 hc0 x0 x1 xs0 xs1 = k0_pay4 (View.ld x0 (rQ i)) (View.ld x1 rW0) xs0 xs1 := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_words
  rw [View.canon_unit_zero (S := S1x256x512) hz3]
  simp only [View.readAt_eq_ld, harg2.read_unread, harg3.read_unread, harg5.read_unread, harg6.read_unread, View.ld_unit_zero (S := S2048x512) hz2]
  rfl

/-- First tile of a batch entry: the result tile, from the key and value rows stored just before. -/
theorem tile_A (c : Dev nD) (i : grid0.Coords) (arg2 : Memref sig .tc .vmem S1x2048x512 .f32) (harg2 : arg2.IsWhole) (arg3 : Memref sig .tc .vmem S3x512x512 .bf16) (harg3 : arg3.IsWhole) (arg4 : Memref sig .tc .vmem S1x256x512 .f32) (harg4 : arg4.IsWhole) (arg5 : Memref sig .tc .vmem S2048x512 .bf16) (harg5 : arg5.IsWhole) (arg6 : Memref sig .tc .vmem S2048x512 .bf16) (harg6 : arg6.IsWhole) (hc0 : cond0_0 i)
    (x0 : Vec F S1x2048x512 .f32) (x1 : Vec F S3x512x512 .bf16) :
    out0_A_2 c i arg2 harg2 arg3 harg3 arg4 harg4 arg5 harg5 arg6 harg6 hc0 x0 x1 = k0_pay4 (View.ld x0 (rQ i)) (View.ld x1 rW0) (k0_pay2 x0 (View.ld x1 rW1)) (k0_pay3 x0 (View.ld x1 rW2)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero (S := S1x256x512) hz3, View.readCov_unit_zero (S := S2048x512) _ hz2, View.readCov_unit_zero (S := S2048x512) _ hz2]
  simp only [View.readAt_eq_ld, harg2.read_unread, harg3.read_unread, View.ld_unit_zero (S := S1x2048x512) hz3]
  rfl

end Cert.KernelIdeal.Pieces
end
-- ==== Proof.AttnSpec.lean ====
/-
  The specification: scaled dot-product attention with one shared key and value set per batch entry, over the extended
  reals. A token `(b, s)` of the input `X : [8, 2048, 512]` is projected by the three matrices `W 0`, `W 1`, `W 2` of
  `W : [3, 512, 512]` into a query, a key and a value row. Query `q` of batch entry `b` scores every key `k` of the same
  entry by their inner product times a fixed scale; the scores of one query are turned into weights by subtracting their
  maximum and exponentiating; and the result row is the weighted mean of the value rows, each weight divided by the sum of
  the query's weights. Nothing here needs the entries to be finite: both programs compute this one term.
-/
import Idealize.ShloMosaic.PureOps.Ideal
import Idealize.ShloMosaic.Lib.ValueIdx

noncomputable section

namespace Cert.Attn

open Idealize.ShloMosaic Idealize.ShloMosaic.ValueIdx

/-- The scale applied to every score: the float pattern of `0.125`, the same word in both programs. -/
abbrev scale : EReal := Ideal.ofBits .f32 0x3E000000#32
/-- The value a row's maximum starts from: the float pattern of `-∞`, the same word in both programs. -/
abbrev floorVal : EReal := Ideal.ofBits .f32 0xFF800000#32

variable {S E D : Nat}

/-- The scores of one query row `q` against the key rows `Kf`: inner products, scaled. -/
def scores (q : Fin E → EReal) (Kf : Fin S → Fin E → EReal) (k : Fin S) : EReal :=
  (∑ e : Fin E, q e * Kf k e) * scale

/-- The unnormalised weights of one row of scores: each score less the row's maximum, exponentiated. -/
def weights (s : Fin S → EReal) (k : Fin S) : EReal :=
  Ideal.exp (s k - (Finset.univ : Finset (Fin S)).fold max floorVal s)

/-- The weighted mean of the value rows `Vf` under the weights `w`, each divided by the weights' sum. -/
def mix (w : Fin S → EReal) (Vf : Fin S → Fin D → EReal) (d : Fin D) : EReal :=
  ∑ k : Fin S, Ideal.div (w k) (∑ k' : Fin S, w k') * Vf k d

/-- One query's result row. -/
def attnRow (q : Fin E → EReal) (Kf : Fin S → Fin E → EReal) (Vf : Fin S → Fin D → EReal) (d : Fin D) : EReal :=
  mix (weights (scores q Kf)) Vf d

abbrev SX : Shape := ⟨3, ![8, 2048, 512]⟩
abbrev SW : Shape := ⟨3, ![3, 512, 512]⟩

/-- Projection `j` of token `(b, s)`: row `s` of `X b` times the matrix `W j`. -/
def proj (X : SX.Idx → EReal) (W : SW.Idx → EReal) (j : Fin 3) (b : Fin 8) (s : Fin 2048) (e : Fin 512) : EReal :=
  ∑ d : Fin 512, X (ix3 b s d) * W (ix3 j d e)

/-- The whole result: entry `(b, q, d)` is coordinate `d` of the result row of query `q` of batch entry `b`, against the keys
    and values of that batch entry. -/
def G (X : SX.Idx → EReal) (W : SW.Idx → EReal) : SX.Idx → EReal :=
  fun i => attnRow (proj X W 0 (i 0) (i 1)) (proj X W 1 (i 0)) (proj X W 2 (i 0)) (i 2)

theorem G_ix3 (X : SX.Idx → EReal) (W : SW.Idx → EReal) (b : Fin 8) (q : Fin 2048) (d : Fin 512) :
    G X W (ix3 b q d) = attnRow (proj X W 0 b q) (proj X W 1 b) (proj X W 2 b) d := rfl

end Cert.Attn

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibRowReduce.lean ====
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.RowReduce

open Idealize.ShloMosaic Idealize.ShloMosaic.ValueIdx

variable {α : Type} {a b : Nat}

/-! ## A column kept as a unit axis -/

/-- A vector of length `a` cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value kept as a column and broadcast back over the row is, at `(p, c)`, the value of row `p`. -/
theorem keepdims_apply (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A reduction along the rows of a matrix -/

/-- The index of row `p` with the column `k` put back. -/
theorem lift_ix1 (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- Over the extended reals the sum along each row, at row `p`, is the sum of the row's entries. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- Over the extended reals the maximum along each row, at row `p`, is the fold of `max` over the row's entries from the
    value the reduction starts at. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (Finset.fold max (FloatOps.ofBits φ acc) · (Finset.univ : Finset (Fin b)))
      (funext fun k => congrArg src (lift_ix1 h p k)))

end Idealize.ShloMosaic.RowReduce

end
-- ==== Proof.KernelTile.lean ====
/-
  What the kernel's body computes, entry by entry, over the extended reals (where a change of float format is the identity
  and a matrix product into a zero accumulator is the plain sum of products). The body has three stored values. Two are the
  key and value rows of the whole batch entry resident in the input block: row `s` of the block times the second, respectively
  third, weight matrix. The third is one tile of 256 result rows: the tile's rows times the first weight matrix are the
  queries; each query scores all 2048 key rows, the scores become weights by subtracting the row maximum and
  exponentiating, the weights are divided by their row sum, and the weighted value rows are summed — `Cert.Attn.attnRow`
  of the query row and of the key and value rows the body reads back.
-/
import proofs.«126263_j22789096472642_2_alg».proof.Proof.Gen.KernelIdeal.Skeleton
import proofs.«126263_j22789096472642_2_alg».proof.Proof.AttnSpec
import proofs.«126263_j22789096472642_2_alg».proof.Proof.LibPlainMatmul
import proofs.«126263_j22789096472642_2_alg».proof.Proof.LibRowReduce
import Idealize.ShloMosaic.Lib.ValueLayout

noncomputable section

namespace Cert.KernelIdeal.Tile

open Cert.KernelIdeal Cert.KernelIdeal.Gen Idealize.ShloMosaic Idealize.ShloMosaic.ValueIdx Cert.Attn

/-- The resident block with its unit axis dropped: entry `(s, d)` is the block's `(0, s, d)`. -/
theorem pay1_apply (v33 : FVec Ideal S1x2048x512 .f32) (s : Fin 2048) (d : Fin 512) :
    k0_pay1 (F := Ideal) v33 (ix2 s d) = v33 (ix3 (0 : Fin 1) s d) :=
  shapeCast_1ab_ab_apply v33 shapeCasts_S1x2048x512_S2048x512 s d

/-- The stored key rows: row `s` of the resident block times the loaded weight matrix. -/
theorem pay2_apply (v33 : FVec Ideal S1x2048x512 .f32) (v36 : FVec Ideal S1x512x512 .bf16) (s : Fin 2048) (e : Fin 512) :
    k0_pay2 (F := Ideal) v33 v36 (ix2 s e) = ∑ d : Fin 512, v33 (ix3 (0 : Fin 1) s d) * v36 (ix3 (0 : Fin 1) d e) := by
  unfold k0_pay2
  rw [shapeCast_self]
  refine (PlainMatmul.matmul_zero_apply dot_S2048x512_S512x512_S2048x512_1_0_0_1_n_n_wf none (k0_pay1 (F := Ideal) v33)
    (shapeCast S512x512 v36 shapeCasts_S1x512x512_S512x512) s e).trans ?_
  exact Finset.sum_congr rfl fun k _ => congrArg₂ (· * ·) (pay1_apply v33 s k)
    (shapeCast_1ab_ab_apply v36 shapeCasts_S1x512x512_S512x512 k e)

/-- The stored value rows: the same with the other loaded weight matrix. -/
theorem pay3_apply (v33 : FVec Ideal S1x2048x512 .f32) (v38 : FVec Ideal S1x512x512 .bf16) (s : Fin 2048) (e : Fin 512) :
    k0_pay3 (F := Ideal) v33 v38 (ix2 s e) = ∑ d : Fin 512, v33 (ix3 (0 : Fin 1) s d) * v38 (ix3 (0 : Fin 1) d e) := by
  unfold k0_pay3
  rw [shapeCast_self]
  refine (PlainMatmul.matmul_zero_apply dot_S2048x512_S512x512_S2048x512_1_0_0_1_n_n_wf none (k0_pay1 (F := Ideal) v33)
    (shapeCast S512x512 v38 shapeCasts_S1x512x512_S512x512) s e).trans ?_
  exact Finset.sum_congr rfl fun k _ => congrArg₂ (· * ·) (pay1_apply v33 s k)
    (shapeCast_1ab_ab_apply v38 shapeCasts_S1x512x512_S512x512 k e)

/-! ## The result tile, one stage at a time -/

/-- The tile's queries: the tile's 256 rows (unit axis dropped) times the loaded weight matrix. -/
def qTile (v6 : FVec Ideal S1x256x512 .f32) (v8 : FVec Ideal S1x512x512 .bf16) : FVec Ideal S256x512 .f32 :=
  matmul dot_S256x512_S512x512_S256x512_1_0_0_1_n_n none
    (truncf .bf16 (shapeCast S256x512 v6 shapeCasts_S1x256x512_S256x512) bitsLt_bf16_f32)
    (shapeCast S512x512 v8 shapeCasts_S1x512x512_S512x512) (constant S256x512 .f32 0x00000000#32)

/-- The scaled scores of the tile's queries against the key rows `v13` (transposed for the product). -/
def sTile (v6 : FVec Ideal S1x256x512 .f32) (v8 : FVec Ideal S1x512x512 .bf16) (v13 : FVec Ideal S2048x512 .bf16) :
    FVec Ideal S256x2048 .f32 :=
  mulf (matmul dot_S256x512_S512x2048_S256x2048_1_0_0_1_n_n none (truncf .bf16 (qTile v6 v8) bitsLt_bf16_f32)
      (transpose S512x2048 [1, 0] v13 transposes_S2048x512_p1_0_S512x2048) (constant S256x2048 .f32 0x00000000#32))
    (broadcast S256x2048 (Scalar.ofBits .f32 0x3E000000#32))

/-- Scores to weights: each less its row's maximum (kept as a column and broadcast back), exponentiated. -/
def wTile (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- Weights divided by their row's sum (kept as a column and broadcast back). -/
def nTile (p : FVec Ideal S256x2048 .f32) : FVec Ideal S256x2048 .f32 :=
  divf p (broadcastTo S256x2048 (shapeCast S256x1
    (multiReduction .add [1] S256 p 0x00000000#32 reduces_S256x2048_S256 (.inl rfl) rfl) shapeCasts_S256_S256x1)
    broadcasts_S256x1_S256x2048)

/-- The normalised weights times the value rows `v14`. -/
def oTile (a : FVec Ideal S256x2048 .f32) (v14 : FVec Ideal S2048x512 .bf16) : FVec Ideal S256x512 .f32 :=
  matmul dot_S256x2048_S2048x512_S256x512_1_0_0_1_n_n none (truncf .bf16 a bitsLt_bf16_f32) v14
    (constant S256x512 .f32 0x00000000#32)

/-- The body's stored tile is these stages composed, with a unit axis put in front. -/
theorem pay4_eq (v6 : FVec Ideal S1x256x512 .f32) (v8 : FVec Ideal S1x512x512 .bf16) (v13 v14 : FVec Ideal S2048x512 .bf16) :
    k0_pay4 (F := Ideal) v6 v8 v13 v14
      = shapeCast S1x256x512 (oTile (nTile (wTile (sTile v6 v8 v13))) v14) shapeCasts_S256x512_S1x256x512 := rfl

theorem qTile_apply (v6 : FVec Ideal S1x256x512 .f32) (v8 : FVec Ideal S1x512x512 .bf16) (r : Fin 256) (e : Fin 512) :
    qTile v6 v8 (ix2 r e) = ∑ d : Fin 512, v6 (ix3 (0 : Fin 1) r d) * v8 (ix3 (0 : Fin 1) d e) := by
  unfold qTile
  refine (PlainMatmul.matmul_zero_apply dot_S256x512_S512x512_S256x512_1_0_0_1_n_n_wf none
    (truncf .bf16 (shapeCast S256x512 v6 shapeCasts_S1x256x512_S256x512) bitsLt_bf16_f32)
    (shapeCast S512x512 v8 shapeCasts_S1x512x512_S512x512) r e).trans ?_
  exact Finset.sum_congr rfl fun k _ => congrArg₂ (· * ·)
    (shapeCast_1ab_ab_apply v6 shapeCasts_S1x256x512_S256x512 r k)
    (shapeCast_1ab_ab_apply v8 shapeCasts_S1x512x512_S512x512 k e)

theorem sTile_apply (v6 : FVec Ideal S1x256x512 .f32) (v8 : FVec Ideal S1x512x512 .bf16) (v13 : FVec Ideal S2048x512 .bf16)
    (r : Fin 256) (k : Fin 2048) :
    sTile v6 v8 v13 (ix2 r k) = (∑ e : Fin 512, qTile v6 v8 (ix2 r e) * v13 (ix2 k e)) * scale := by
  unfold sTile
  refine congrArg (· * scale) ?_
  refine (PlainMatmul.matmul_zero_apply dot_S256x512_S512x2048_S256x2048_1_0_0_1_n_n_wf none
    (truncf .bf16 (qTile v6 v8) bitsLt_bf16_f32)
    (transpose S512x2048 [1, 0] v13 transposes_S2048x512_p1_0_S512x2048) r k).trans ?_
  exact Finset.sum_congr rfl fun e _ => congrArg (qTile v6 v8 (ix2 r e) * ·)
    (transpose_ix2_apply v13 transposes_S2048x512_p1_0_S512x2048 e k)

theorem wTile_apply (s : FVec Ideal S256x2048 .f32) (r : Fin 256) (k : Fin 2048) :
    wTile s (ix2 r k) = Ideal.exp (s (ix2 r k) - (Finset.univ : Finset (Fin 2048)).fold max floorVal (fun k' => s (ix2 r k'))) := by
  unfold wTile
  exact congrArg (fun z => Ideal.exp (s (ix2 r k) - z))
    ((RowReduce.keepdims_apply _ shapeCasts_S256_S256x1 broadcasts_S256x1_S256x2048 r k).trans
      (RowReduce.rowMax_apply s 0xFF800000#32 reduces_S256x2048_S256 (.inl rfl) rfl r))

theorem nTile_apply (p : FVec Ideal S256x2048 .f32) (r : Fin 256) (k : Fin 2048) :
    nTile p (ix2 r k) = Ideal.div (p (ix2 r k)) (∑ k' : Fin 2048, p (ix2 r k')) := by
  unfold nTile
  exact congrArg (fun z => Ideal.div (p (ix2 r k)) z)
    ((RowReduce.keepdims_apply _ shapeCasts_S256_S256x1 broadcasts_S256x1_S256x2048 r k).trans
      (RowReduce.rowSum_apply p 0x00000000#32 reduces_S256x2048_S256 (.inl rfl) rfl r))

theorem oTile_apply (a : FVec Ideal S256x2048 .f32) (v14 : FVec Ideal S2048x512 .bf16) (r : Fin 256) (d : Fin 512) :
    oTile a v14 (ix2 r d) = ∑ k : Fin 2048, a (ix2 r k) * v14 (ix2 k d) := by
  unfold oTile
  exact PlainMatmul.matmul_zero_apply dot_S256x2048_S2048x512_S256x512_1_0_0_1_n_n_wf none
    (truncf .bf16 a bitsLt_bf16_f32) v14 r d

/-- THE TILE: row `r`, column `d` of the stored tile is the attention row of the tile's query `r` — row `r` of the loaded
    rows times the first weight matrix — against the key rows `v13` and the value rows `v14` the body read back. -/
theorem pay4_apply (v6 : FVec Ideal S1x256x512 .f32) (v8 : FVec Ideal S1x512x512 .bf16) (v13 v14 : FVec Ideal S2048x512 .bf16)
    (r : Fin 256) (d : Fin 512) :
    k0_pay4 (F := Ideal) v6 v8 v13 v14 (ix3 (0 : Fin 1) r d)
      = attnRow (fun e : Fin 512 => ∑ dd : Fin 512, v6 (ix3 (0 : Fin 1) r dd) * v8 (ix3 (0 : Fin 1) dd e))
          (fun (k : Fin 2048) (e : Fin 512) => v13 (ix2 k e)) (fun (k : Fin 2048) (dd : Fin 512) => v14 (ix2 k dd)) d := by
  rw [pay4_eq]
  refine (shapeCast_ab_1ab_apply _ shapeCasts_S256x512_S1x256x512 (0 : Fin 1) r d).trans ?_
  rw [oTile_apply]
  have hs : ∀ k : Fin 2048, sTile v6 v8 v13 (ix2 r k)
      = scores (fun e : Fin 512 => ∑ dd : Fin 512, v6 (ix3 (0 : Fin 1) r dd) * v8 (ix3 (0 : Fin 1) dd e))
          (fun (k : Fin 2048) (e : Fin 512) => v13 (ix2 k e)) k := fun k => by
    rw [sTile_apply]; unfold scores
    exact congrArg (· * scale) (Finset.sum_congr rfl fun e _ => congrArg (· * v13 (ix2 k e)) (qTile_apply v6 v8 r e))
  have hw : ∀ k : Fin 2048, wTile (sTile v6 v8 v13) (ix2 r k)
      = weights (scores (fun e : Fin 512 => ∑ dd : Fin 512, v6 (ix3 (0 : Fin 1) r dd) * v8 (ix3 (0 : Fin 1) dd e))
          (fun (k : Fin 2048) (e : Fin 512) => v13 (ix2 k e))) k := fun k => by
    rw [wTile_apply]; unfold weights
    simp only [hs]
  unfold attnRow mix
  refine Finset.sum_congr rfl fun k _ => ?_
  rw [nTile_apply]
  simp only [hw]

end Cert.KernelIdeal.Tile

end
-- ==== Proof.KernelValue.lean ====
/-
  The kernel's result array, entry by entry, over the extended reals. The grid has 64 points: point `t` is query tile `t % 8`
  of batch entry `t / 8`. Over the run of one batch entry the two scratch buffers hold that entry's key and value rows —
  stored at the entry's first tile from the resident input block, untouched afterwards, while the input block stays that of
  the same entry — so at every point the result tile is the attention rows of the tile's 256 queries against the keys and
  values of their own batch entry: block `(t / 8, t % 8)` of `Cert.Attn.G` of the two arrays the region finds. The blocks
  tile the result array, which therefore ends as `G` whole.
-/
import proofs.«126263_j22789096472642_2_alg».proof.Proof.Gen.KernelIdeal.Value
import proofs.«126263_j22789096472642_2_alg».proof.Proof.KernelPieces
import proofs.«126263_j22789096472642_2_alg».proof.Proof.KernelTile
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.AttnValue
open Cert.KernelIdeal Cert.KernelIdeal.Gen Cert.KernelIdeal.Value Cert.KernelIdeal.Pieces Cert.KernelIdeal.Tile
open Idealize.ShloMosaic.ValueIdx Cert.Attn

variable (m : (ℓ : Loc nD τ sig) → Buf (Elt Ideal) ℓ) (ρ : Dev nD → PrngReg)

/-! ## The windows' blocks -/

/-- The printed index maps, decided over the grid: the input block is batch entry `t / 8` whole, the weight block the whole
    weight array, the output block tile `t % 8` of batch entry `t / 8`; and the grid's second coordinate is `t % 8`. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ (grid0.coords t 1).val = t.val % 8 :=
  (by decide +kernel : ∀ t : Fin grid0.N, _)

/-- The input block at point `t`, read at `y`, is the input array at batch entry `t / 8` and `y`'s row and column. -/
theorem iblk0_apply (c : Dev nD) (t : Fin cfg0.N) (y : S1x2048x512.Idx) (i : S8x2048x512.Idx)
    (h0 : (i 0).val = t.val / 8) (h1 : (i 1).val = (y 1).val) (h2 : (i 2).val = (y 2).val) :
    (iblk m c 0 t : FVec Ideal S1x2048x512 .f32) y = V m c main_arg0 i := by
  obtain ⟨e0, e1, e2, -⟩ := idx_facts t
  show V m c main_arg0 (((cfg0.win 0).blk t).view.emb y) = V m c main_arg0 i
  refine congrArg _ (funext fun a => Fin.ext ?_)
  have hy0 : (y 0).val < 1 := (y 0).isLt
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 512 + 1 * (y 2).val = (i 2).val; omega

/-- The weight block at any point is the whole weight array. -/
theorem iblk1_apply (c : Dev nD) (t : Fin cfg0.N) (y : S3x512x512.Idx) :
    (iblk m c 1 t : FVec Ideal S3x512x512 .bf16) y = V m c main_v0 y := by
  obtain ⟨-, -, -, e0, e1, e2, -⟩ := idx_facts t
  show V m c main_v0 (((cfg0.win 1).blk t).view.emb y) = V m c main_v0 y
  refine congrArg _ (funext fun a => Fin.ext ?_)
  match a with
  | ⟨0, _⟩ => show win0_1.index t (0 : Fin 3) * 3 + 1 * (y 0).val = (y 0).val; omega
  | ⟨1, _⟩ => show win0_1.index t (1 : Fin 3) * 512 + 1 * (y 1).val = (y 1).val; omega
  | ⟨2, _⟩ => show win0_1.index t (2 : Fin 3) * 512 + 1 * (y 2).val = (y 2).val; omega

/-! ## The body's loads at an index -/

theorem ld_rW0 (x1 : FVec Ideal S3x512x512 .bf16) (d e : Fin 512) :
    View.ld (Val := Elt Ideal) (S := S3x512x512) (e' := EltTy.bf16) x1 rW0 (ix3 (0 : Fin 1) d e) = x1 (ix3 (0 : Fin 3) d e) := by
  show x1 (rW0.idx (ix3 (0 : Fin 1) d e)) = _
  refine congrArg x1 (funext fun a => Fin.ext ?_)
  match a with
  | ⟨0, _⟩ => rfl
  | ⟨1, _⟩ => first | rfl | (show 0 + 1 * d.val = d.val; omega)
  | ⟨2, _⟩ => first | rfl | (show 0 + 1 * e.val = e.val; omega)

theorem ld_rW1 (x1 : FVec Ideal S3x512x512 .bf16) (d e : Fin 512) :
    View.ld (Val := Elt Ideal) (S := S3x512x512) (e' := EltTy.bf16) x1 rW1 (ix3 (0 : Fin 1) d e) = x1 (ix3 (1 : Fin 3) d e) := by
  show x1 (rW1.idx (ix3 (0 : Fin 1) d e)) = _
  refine congrArg x1 (funext fun a => Fin.ext ?_)
  match a with
  | ⟨0, _⟩ => rfl
  | ⟨1, _⟩ => first | rfl | (show 0 + 1 * d.val = d.val; omega)
  | ⟨2, _⟩ => first | rfl | (show 0 + 1 * e.val = e.val; omega)

theorem ld_rW2 (x1 : FVec Ideal S3x512x512 .bf16) (d e : Fin 512) :
    View.ld (Val := Elt Ideal) (S := S3x512x512) (e' := EltTy.bf16) x1 rW2 (ix3 (0 : Fin 1) d e) = x1 (ix3 (2 : Fin 3) d e) := by
  show x1 (rW2.idx (ix3 (0 : Fin 1) d e)) = _
  refine congrArg x1 (funext fun a => Fin.ext ?_)
  match a with
  | ⟨0, _⟩ => rfl
  | ⟨1, _⟩ => first | rfl | (show 0 + 1 * d.val = d.val; omega)
  | ⟨2, _⟩ => first | rfl | (show 0 + 1 * e.val = e.val; omega)

/-- The query tile's rows: row `r` of the load is row `256 · (tile) + r` of the resident block. -/
theorem ld_rQ (x0 : FVec Ideal S1x2048x512 .f32) (i : grid0.Coords) (r : Fin 256) (d : Fin 512) (s : Fin 2048)
    (hs : s.val = 256 * (i 1).val + r.val) :
    View.ld (Val := Elt Ideal) (S := S1x2048x512) (e' := EltTy.f32) x0 (rQ i) (ix3 (0 : Fin 1) r d) = x0 (ix3 (0 : Fin 1) s d) := by
  show x0 ((rQ i).idx (ix3 (0 : Fin 1) r d)) = _
  refine congrArg x0 (funext fun a => Fin.ext ?_)
  have hk := k0_off1_eq i
  match a with
  | ⟨0, _⟩ => show (k0_off1 i) 0 + 1 * 0 = 0; rw [hk]; rfl
  | ⟨1, _⟩ => show (k0_off1 i) 1 + 1 * r.val = s.val; rw [hk, hs]; show 256 * (i 1).val + 1 * r.val = _; omega
  | ⟨2, _⟩ => show (k0_off1 i) 2 + 1 * d.val = d.val; rw [hk]; show 0 + 1 * d.val = d.val; omega

/-! ## The two arrays the region finds, and the carried key and value rows -/

/-- The input array and the (format-changed) weight array as the region finds them. -/
abbrev Xr (c : Dev nD) : SX.Idx → EReal := V m c main_arg0
abbrev Wr (c : Dev nD) : SW.Idx → EReal := V m c main_v0

/-- The key rows and the value rows of batch entry `b`. -/
def keysOf (c : Dev nD) (b : Fin 8) : FVec Ideal S2048x512 .bf16 := fun j => proj (Xr m c) (Wr m c) 1 b (j 0) (j 1)
def valsOf (c : Dev nD) (b : Fin 8) : FVec Ideal S2048x512 .bf16 := fun j => proj (Xr m c) (Wr m c) 2 b (j 0) (j 1)

/-- What the body stores as key rows at a point of batch entry `b` is that entry's key rows. -/
theorem keys_eq (c : Dev nD) (t : Fin cfg0.N) (b : Fin 8) (hb : b.val = t.val / 8) :
    k0_pay2 (F := Ideal) (iblk m c 0 t) (View.ld (Val := Elt Ideal) (S := S3x512x512) (e' := EltTy.bf16) (iblk m c 1 t) rW1) = keysOf m c b := by
  funext j
  obtain ⟨s, e, rfl⟩ : ∃ (s : Fin 2048) (e : Fin 512), j = ix2 s e := ⟨j 0, j 1, eq_ix2 j⟩
  refine (pay2_apply (iblk m c 0 t) (View.ld (Val := Elt Ideal) (S := S3x512x512) (e' := EltTy.bf16) (iblk m c 1 t) rW1) s e).trans ?_
  show _ = proj (Xr m c) (Wr m c) 1 b s e
  unfold proj
  refine Finset.sum_congr rfl fun d _ => ?_
  rw [ld_rW1, iblk1_apply, iblk0_apply m c t (ix3 (0 : Fin 1) s d) (ix3 b s d) hb rfl rfl]

/-- The same for the value rows. -/
theorem vals_eq (c : Dev nD) (t : Fin cfg0.N) (b : Fin 8) (hb : b.val = t.val / 8) :
    k0_pay3 (F := Ideal) (iblk m c 0 t) (View.ld (Val := Elt Ideal) (S := S3x512x512) (e' := EltTy.bf16) (iblk m c 1 t) rW2) = valsOf m c b := by
  funext j
  obtain ⟨s, e, rfl⟩ : ∃ (s : Fin 2048) (e : Fin 512), j = ix2 s e := ⟨j 0, j 1, eq_ix2 j⟩
  refine (pay3_apply (iblk m c 0 t) (View.ld (Val := Elt Ideal) (S := S3x512x512) (e' := EltTy.bf16) (iblk m c 1 t) rW2) s e).trans ?_
  show _ = proj (Xr m c) (Wr m c) 2 b s e
  unfold proj
  refine Finset.sum_congr rfl fun d _ => ?_
  rw [ld_rW2, iblk1_apply, iblk0_apply m c t (ix3 (0 : Fin 1) s d) (ix3 b s d) hb rfl rfl]

/-! ## The cases' pieces at a point of the grid -/

theorem keys_at (c : Dev nD) (t : Fin cfg0.N) (h0 : t.val % 8 = 0) :
    (outsAt0 m c t.val t.isLt).2.1
      = k0_pay2 (F := Ideal) (iblk m c 0 t) (View.ld (Val := Elt Ideal) (S := S3x512x512) (e' := EltTy.bf16) (iblk m c 1 t) rW1) := by
  rw [outsAt0_A m c t h0]
  dsimp only
  exact keys_A (F := Ideal) c (grid0.coords t) (ms0_0 t) (hs0_0 t) (ms0_1 t) (hs0_1 t) (ms0_2 t) (hs0_2 t) scM0_0
    (Memref.isWhole_whole _) scM0_1 (Memref.isWhole_whole _) ((hcond0_0 t).mpr h0) (iblk m c 0 t) (iblk m c 1 t)

theorem vals_at (c : Dev nD) (t : Fin cfg0.N) (h0 : t.val % 8 = 0) :
    (outsAt0 m c t.val t.isLt).2.2
      = k0_pay3 (F := Ideal) (iblk m c 0 t) (View.ld (Val := Elt Ideal) (S := S3x512x512) (e' := EltTy.bf16) (iblk m c 1 t) rW2) := by
  rw [outsAt0_A m c t h0]
  dsimp only
  exact vals_A (F := Ideal) c (grid0.coords t) (ms0_0 t) (hs0_0 t) (ms0_1 t) (hs0_1 t) (ms0_2 t) (hs0_2 t) scM0_0
    (Memref.isWhole_whole _) scM0_1 (Memref.isWhole_whole _) ((hcond0_0 t).mpr h0) (iblk m c 0 t) (iblk m c 1 t)

theorem tileA_at (c : Dev nD) (t : Fin cfg0.N) (h0 : t.val % 8 = 0) :
    (outsAt0 m c t.val t.isLt).1
      = k0_pay4 (F := Ideal) (View.ld (Val := Elt Ideal) (S := S1x2048x512) (e' := EltTy.f32) (iblk m c 0 t) (rQ (grid0.coords t)))
          (View.ld (Val := Elt Ideal) (S := S3x512x512) (e' := EltTy.bf16) (iblk m c 1 t) rW0)
          (k0_pay2 (F := Ideal) (iblk m c 0 t) (View.ld (Val := Elt Ideal) (S := S3x512x512) (e' := EltTy.bf16) (iblk m c 1 t) rW1))
          (k0_pay3 (F := Ideal) (iblk m c 0 t) (View.ld (Val := Elt Ideal) (S := S3x512x512) (e' := EltTy.bf16) (iblk m c 1 t) rW2)) := by
  rw [outsAt0_A m c t h0]
  dsimp only
  exact tile_A (F := Ideal) c (grid0.coords t) (ms0_0 t) (hs0_0 t) (ms0_1 t) (hs0_1 t) (ms0_2 t) (hs0_2 t) scM0_0
    (Memref.isWhole_whole _) scM0_1 (Memref.isWhole_whole _) ((hcond0_0 t).mpr h0) (iblk m c 0 t) (iblk m c 1 t)

theorem tileB_at (c : Dev nD) (t : Fin cfg0.N) (h0 : ¬t.val % 8 = 0) :
    (outsAt0 m c t.val t.isLt).1
      = k0_pay4 (F := Ideal) (View.ld (Val := Elt Ideal) (S := S1x2048x512) (e' := EltTy.f32) (iblk m c 0 t) (rQ (grid0.coords t)))
          (View.ld (Val := Elt Ideal) (S := S3x512x512) (e' := EltTy.bf16) (iblk m c 1 t) rW0)
          (outsAt0 m c (t.val - 1) (Nat.lt_of_le_of_lt (Nat.sub_le _ _) t.isLt)).2.1
          (outsAt0 m c (t.val - 1) (Nat.lt_of_le_of_lt (Nat.sub_le _ _) t.isLt)).2.2 := by
  rw [outsAt0_B m c t h0]
  dsimp only
  exact tile_B (F := Ideal) c (grid0.coords t) (ms0_0 t) (hs0_0 t) (ms0_1 t) (hs0_1 t) (ms0_2 t) (hs0_2 t) scM0_0
    (Memref.isWhole_whole _) scM0_1 (Memref.isWhole_whole _) (fun h => h0 ((hcond0_0 t).mp h)) (iblk m c 0 t) (iblk m c 1 t)
    (outsAt0 m c (t.val - 1) (Nat.lt_of_le_of_lt (Nat.sub_le _ _) t.isLt)).2.1
    (outsAt0 m c (t.val - 1) (Nat.lt_of_le_of_lt (Nat.sub_le _ _) t.isLt)).2.2

/-- At a later tile of a batch entry the scratch buffers are as the point before left them. -/
theorem carried_at (c : Dev nD) (t : Fin cfg0.N) (h0 : ¬t.val % 8 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  exact ⟨rfl, rfl⟩

/-- THE INVARIANT: after point `n` the two scratch buffers hold the key rows and the value rows of batch entry `n / 8` —
    stored at the entry's first tile, carried unchanged through its other seven. By induction on the point. -/
theorem scratch_eq (c : Dev nD) : ∀ (n : ℕ) (h : n < cfg0.N) (b : Fin 8), b.val = n / 8 →
    (outsAt0 m c n h).2.1 = keysOf m c b ∧ (outsAt0 m c n h).2.2 = valsOf m c b
  | 0, h, b, hb =>
    ⟨(keys_at m c ⟨0, h⟩ rfl).trans (keys_eq m c ⟨0, h⟩ b hb), (vals_at m c ⟨0, h⟩ rfl).trans (vals_eq m c ⟨0, h⟩ b hb)⟩
  | n + 1, h, b, hb => by
    by_cases h0 : (n + 1) % 8 = 0
    · exact ⟨(keys_at m c ⟨n + 1, h⟩ h0).trans (keys_eq m c ⟨n + 1, h⟩ b hb),
        (vals_at m c ⟨n + 1, h⟩ h0).trans (vals_eq m c ⟨n + 1, h⟩ b hb)⟩
    · obtain ⟨e1, e2⟩ := carried_at m c ⟨n + 1, h⟩ h0
      obtain ⟨i1, i2⟩ := scratch_eq c n (Nat.lt_of_succ_lt h) b (by omega)
      exact ⟨e1.trans i1, e2.trans i2⟩

/-! ## The result tile -/

/-- The stored tile at a point of batch entry `b`, tile `t % 8`, read at `y`, is `G` at `(b, 256 · (t % 8) + y's row, y's column)`. -/
theorem tile_eq (c : Dev nD) (t : Fin cfg0.N) (b : Fin 8) (hb : b.val = t.val / 8) (y : S1x256x512.Idx) (i : S8x2048x512.Idx)
    (h0 : (i 0).val = t.val / 8) (h1 : (i 1).val = 256 * (t.val % 8) + (y 1).val) (h2 : (i 2).val = (y 2).val) :
    k0_pay4 (F := Ideal) (View.ld (Val := Elt Ideal) (S := S1x2048x512) (e' := EltTy.f32) (iblk m c 0 t) (rQ (grid0.coords t)))
      (View.ld (Val := Elt Ideal) (S := S3x512x512) (e' := EltTy.bf16) (iblk m c 1 t) rW0) (keysOf m c b) (valsOf m c b) y
      = G (Xr m c) (Wr m c) i := by
  obtain ⟨u, r, d, rfl⟩ : ∃ (u : Fin 1) (r : Fin 256) (d : Fin 512), y = ix3 u r d := ⟨y 0, y 1, y 2, eq_ix3 y⟩
  obtain rfl : u = 0 := Subsingleton.elim _ _
  obtain ⟨b', q, d', rfl⟩ : ∃ (b' : Fin 8) (q : Fin 2048) (d' : Fin 512), i = ix3 b' q d' := ⟨i 0, i 1, i 2, eq_ix3 i⟩
  obtain rfl : b' = b := Fin.ext (h0.trans hb.symm)
  obtain rfl : d' = d := Fin.ext h2
  have hq : q.val = 256 * (grid0.coords t 1).val + r.val := by rw [(idx_facts t).2.2.2.2.2.2.2.2.2]; exact h1
  rw [G_ix3]
  refine (pay4_apply _ _ _ _ r d').trans ?_
  have hqr : (fun e : Fin 512 => ∑ dd : Fin 512,
      View.ld (Val := Elt Ideal) (S := S1x2048x512) (e' := EltTy.f32) (iblk m c 0 t) (rQ (grid0.coords t)) (ix3 (0 : Fin 1) r dd)
        * View.ld (Val := Elt Ideal) (S := S3x512x512) (e' := EltTy.bf16) (iblk m c 1 t) rW0 (ix3 (0 : Fin 1) dd e))
      = proj (Xr m c) (Wr m c) 0 b' q := funext fun e => by
    unfold proj
    refine Finset.sum_congr rfl fun dd _ => ?_
    rw [ld_rW0, iblk1_apply, ld_rQ _ (grid0.coords t) r dd q hq,
      iblk0_apply m c t (ix3 (0 : Fin 1) q dd) (ix3 b' q dd) hb rfl rfl]
  exact congrArg (fun f => attnRow f (proj (Xr m c) (Wr m c) 1 b') (proj (Xr m c) (Wr m c) 2 b') d') hqr

/-- What the output's staging buffer holds after point `t`: the tile computed from the tile's query rows and the key and
    value rows of batch entry `t / 8` — stored just before at the entry's first tile, carried from the point before at the
    others. -/
theorem tile_out (c : Dev nD) (t : Fin cfg0.N) (b : Fin 8) (hb : b.val = t.val / 8) :
    (outsAt0 m c t.val t.isLt).1
      = k0_pay4 (F := Ideal) (View.ld (Val := Elt Ideal) (S := S1x2048x512) (e' := EltTy.f32) (iblk m c 0 t) (rQ (grid0.coords t)))
          (View.ld (Val := Elt Ideal) (S := S3x512x512) (e' := EltTy.bf16) (iblk m c 1 t) rW0) (keysOf m c b) (valsOf m c b) := by
  have hN : t.val < 64 := lt_of_lt_of_eq t.isLt N_0
  by_cases h0 : t.val % 8 = 0
  · rw [tileA_at m c t h0, keys_eq m c t b hb, vals_eq m c t b hb]
  · obtain ⟨hk, hv⟩ := scratch_eq m c (t.val - 1) (Nat.lt_of_le_of_lt (Nat.sub_le _ _) t.isLt) b (by omega)
    rw [tileB_at m c t h0, hk, hv]

/-- WHAT POINT `t` WRITES BACK is block `t` of `G` of the two arrays the region finds. -/
theorem flushed_eq (c : Dev nD) (t : Fin cfg0.N) :
    (dats m 0 c).flushed 2 t = ((cfg0.win 2).blk t).view.read (Elt Ideal) (G (Xr m c) (Wr m c)) := by
  obtain ⟨-, -, -, -, -, -, e0, e1, e2, -⟩ := idx_facts t
  have hN : t.val < 64 := lt_of_lt_of_eq t.isLt N_0
  rw [flushed2, tile_out m c t ⟨t.val / 8, by omega⟩ rfl]
  funext j
  have hj0 : (j 0).val < 1 := (j 0).isLt
  exact tile_eq m c t ⟨t.val / 8, by omega⟩ rfl j (((cfg0.win 2).blk t).view.emb j)
    (by show win0_2.index t (0 : Fin 3) * 1 + 1 * (j 0).val = t.val / 8; omega)
    (by show win0_2.index t (1 : Fin 3) * 256 + 1 * (j 1).val = 256 * (t.val % 8) + (j 1).val; omega)
    (by show win0_2.index t (2 : Fin 3) * 512 + 1 * (j 2).val = (j 2).val; omega)

/-! ## From blocks to the array -/

/-- An index of the result array is in point `t`'s block iff each coordinate is in the block's range on its axis. -/
theorem mem_blk (t : Fin cfg0.N) (i : S8x2048x512.Idx) :
    i ∈ ((cfg0.win 2).blk t).view.set ↔ ∀ a : Fin 3, win0_2.index t a * S1x256x512.size a ≤ (i a).val ∧ (i a).val < win0_2.index t a * S1x256x512.size a + S1x256x512.size a := by
  show i ∈ ((View.whole main_v1).slice (win0_2.rect t)).set ↔ _
  rw [View.set_slice_whole, Rect.mem_set_unit]
  exact Iff.rfl

/-- THE ARRAY after the run: entry `(b, q, d)` lies in the block of point `8 b + q / 256`, so the blocks cover the array
    and it ends as `G` whole. -/
theorem final (c : Dev nD) : (dats m 0 c).arrAt 2 cfg0.N = G (Xr m c) (Wr m c) :=
  (dats m 0 c).arrAt_eq_of_cover 2 (G (Xr m c) (Wr m c)) (fun t _ => flushed_eq m c t) fun i => by
    have hi0 : (i 0).val < 8 := (i 0).isLt
    have hi1 : (i 1).val < 2048 := (i 1).isLt
    have hi2 : (i 2).val < 512 := (i 2).isLt
    have hN : cfg0.N = 64 := N_0
    obtain ⟨t, ht⟩ : ∃ t : Fin cfg0.N, t.val = (i 0).val * 8 + (i 1).val / 256 :=
      ⟨⟨(i 0).val * 8 + (i 1).val / 256, by rw [hN]; omega⟩, rfl⟩
    obtain ⟨-, -, -, -, -, -, e0, e1, e2, -⟩ := idx_facts t
    refine ⟨t, flush0_2 t, ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 256 ≤ (i 1).val ∧ (i 1).val < win0_2.index t (1 : Fin 3) * 256 + 256; omega
    | ⟨2, _⟩ => show win0_2.index t (2 : Fin 3) * 512 ≤ (i 2).val ∧ (i 2).val < win0_2.index t (2 : Fin 3) * 512 + 512; omega

/-! ## The two arrays are the arguments -/

theorem Xr_eq (c : Dev nD) : Xr m c = (m ((c : Thread nD τ).loc main_arg0) : SX.Idx → EReal) := V_main_arg0 m c

/-- The one host operation before the region changes the weight array's float format: over the extended reals, nothing. -/
theorem Wr_eq (c : Dev nD) : Wr m c = (m ((c : Thread nD τ).loc main_arg1) : SW.Idx → EReal) := by
  have e : (V m c main_v0 : S3x512x512.Idx → EReal)
      = truncf (F := Ideal) .bf16 (m ((c : Thread nD τ).loc main_arg1) : FVec Ideal S3x512x512 .f32) bitsLt_bf16_f32 := by
    dsimp only [Gen.V, Gen.hostOps0]; after_results
  exact e

/-! ## The run, read -/

/-- Every weakly fair execution of the idealized kernel terminates with the result array at `G` of the two argument arrays
    and the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [Xr_eq, Wr_eq])), (h c).2⟩)
    (run_blocks m ρ)

end Cert.KernelIdeal.AttnValue
end
-- ==== Proof.RefValue.lean ====
/-
  The reference computes the specification. Its program is a straight line of host operations: three projections of the
  input by the three slices of the weight array, the batched inner products of queries and keys, the scale, the row maximum
  (taken from `-∞`, then once more against `-∞`, which changes nothing), the exponentials of the differences, their row sums
  (from zero), the quotients, and the batched product with the values. Read one operation at a time at an index, this is
  `Cert.Attn.G` of the two arguments, term for term.
-/
import proofs.«126263_j22789096472642_2_alg».proof.Proof.Gen.ReferenceIdeal.Read
import proofs.«126263_j22789096472642_2_alg».proof.Proof.AttnSpec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S8x2048x512, .f32⟩ : BufTy).Contents (Elt Ideal)) (x1 : (⟨S3x512x512, .f32⟩ : BufTy).Contents (Elt Ideal))

/-! ## The three weight matrices: a slice of the weight array, its unit axis dropped -/

theorem w0_apply (d e : Fin 512) : val_main_v1 (F := Ideal) x1 (ix2 d e) = x1 (ix3 (0 : Fin 3) d e) := by
  rw [val_main_v1_apply, val_main_v0_apply]
  refine congrArg x1 (funext fun a => Fin.ext ?_)
  have hd := d.isLt; have he := e.isLt
  match a with
  | ⟨0, _⟩ => rfl
  | ⟨1, _⟩ => show (d.val * 512 + e.val) / 512 % 512 = d.val; omega
  | ⟨2, _⟩ => show (d.val * 512 + e.val) % 512 = e.val; omega

theorem w1_apply (d e : Fin 512) : val_main_v4 (F := Ideal) x1 (ix2 d e) = x1 (ix3 (1 : Fin 3) d e) := by
  rw [val_main_v4_apply, val_main_v3_apply]
  refine congrArg x1 (funext fun a => Fin.ext ?_)
  have hd := d.isLt; have he := e.isLt
  match a with
  | ⟨0, _⟩ => rfl
  | ⟨1, _⟩ => show (d.val * 512 + e.val) / 512 % 512 = d.val; omega
  | ⟨2, _⟩ => show (d.val * 512 + e.val) % 512 = e.val; omega

theorem w2_apply (d e : Fin 512) : val_main_v7 (F := Ideal) x1 (ix2 d e) = x1 (ix3 (2 : Fin 3) d e) := by
  rw [val_main_v7_apply, val_main_v6_apply]
  refine congrArg x1 (funext fun a => Fin.ext ?_)
  have hd := d.isLt; have he := e.isLt
  match a with
  | ⟨0, _⟩ => rfl
  | ⟨1, _⟩ => show (d.val * 512 + e.val) / 512 % 512 = d.val; omega
  | ⟨2, _⟩ => show (d.val * 512 + e.val) % 512 = e.val; omega

/-! ## The three projections -/

theorem q_apply (b : Fin 8) (s : Fin 2048) (e : Fin 512) :
    val_main_v2 (F := Ideal) x0 x1 (ix3 b s e) = proj x0 x1 0 b s e := by
  rw [val_main_v2_apply]; unfold proj
  refine Finset.sum_congr rfl fun k _ => ?_
  have hl : lidx_main_v2 (ix3 b s e) k = ix3 b s k :=
    funext fun a => Fin.ext (by match a with | ⟨0, _⟩ => rfl | ⟨1, _⟩ => rfl | ⟨2, _⟩ => rfl)
  have hr : ridx_main_v2 (ix3 b s e) k = ix2 k e :=
    funext fun a => Fin.ext (by match a with | ⟨0, _⟩ => rfl | ⟨1, _⟩ => rfl)
  rw [hl, hr, w0_apply]

theorem k_apply (b : Fin 8) (s : Fin 2048) (e : Fin 512) :
    val_main_v5 (F := Ideal) x0 x1 (ix3 b s e) = proj x0 x1 1 b s e := by
  rw [val_main_v5_apply]; unfold proj
  refine Finset.sum_congr rfl fun k _ => ?_
  have hl : lidx_main_v5 (ix3 b s e) k = ix3 b s k :=
    funext fun a => Fin.ext (by match a with | ⟨0, _⟩ => rfl | ⟨1, _⟩ => rfl | ⟨2, _⟩ => rfl)
  have hr : ridx_main_v5 (ix3 b s e) k = ix2 k e :=
    funext fun a => Fin.ext (by match a with | ⟨0, _⟩ => rfl | ⟨1, _⟩ => rfl)
  rw [hl, hr, w1_apply]

theorem v_apply (b : Fin 8) (s : Fin 2048) (e : Fin 512) :
    val_main_v8 (F := Ideal) x0 x1 (ix3 b s e) = proj x0 x1 2 b s e := by
  rw [val_main_v8_apply]; unfold proj
  refine Finset.sum_congr rfl fun k _ => ?_
  have hl : lidx_main_v8 (ix3 b s e) k = ix3 b s k :=
    funext fun a => Fin.ext (by match a with | ⟨0, _⟩ => rfl | ⟨1, _⟩ => rfl | ⟨2, _⟩ => rfl)
  have hr : ridx_main_v8 (ix3 b s e) k = ix2 k e :=
    funext fun a => Fin.ext (by match a with | ⟨0, _⟩ => rfl | ⟨1, _⟩ => rfl)
  rw [hl, hr, w2_apply]

/-! ## Scores, weights, their sums -/

theorem s_apply (b : Fin 8) (q k : Fin 2048) :
    val_main_v11 (F := Ideal) x0 x1 (ix3 b q k) = scores (proj x0 x1 0 b q) (proj x0 x1 1 b) k := by
  rw [val_main_v11_apply, val_main_v9_apply, val_main_v10_apply, val_main_cst_apply]
  unfold scores
  refine congrArg (· * scale) (Finset.sum_congr rfl fun e _ => ?_)
  have hl : lidx_main_v9 (ix3 b q k) e = ix3 b q e :=
    funext fun a => Fin.ext (by match a with | ⟨0, _⟩ => rfl | ⟨1, _⟩ => rfl | ⟨2, _⟩ => rfl)
  have hr : ridx_main_v9 (ix3 b q k) e = ix3 b k e :=
    funext fun a => Fin.ext (by match a with | ⟨0, _⟩ => rfl | ⟨1, _⟩ => rfl | ⟨2, _⟩ => rfl)
  rw [hl, hr, q_apply, k_apply]

/-- The row maximum, taken from `-∞` and then once more against `-∞`: the fold of `max` over the row from `-∞`. -/
theorem m_apply (b : Fin 8) (q : Fin 2048) :
    val_main_v14 (F := Ideal) x0 x1 (ix2 b q)
      = (Finset.univ : Finset (Fin 2048)).fold max floorVal (scores (proj x0 x1 0 b q) (proj x0 x1 1 b)) := by
  have hR : S8x2048x2048.Reduces [2] S8x2048 := by decide
  have h12 : val_main_v12 (F := Ideal) x0 x1 (ix2 b q)
      = (Finset.univ : Finset (Fin 2048)).fold max floorVal (scores (proj x0 x1 0 b q) (proj x0 x1 1 b)) := by
    unfold val_main_v12
    refine (Host.reduce_eq_fold_single (α := EReal) (FloatOps.maximumf (F := Ideal) (φ := .f32))
      (val_main_v11 (F := Ideal) x0 x1 : S8x2048x2048.Idx → EReal) (val_main_cst_0 (F := Ideal) : S_.Idx → EReal)
      reducesTo_S8x2048x2048_S8x2048_d2 hR h_S_ (ix2 b q)).trans ?_
    refine congrArg (Finset.fold max floorVal · (Finset.univ : Finset (Fin 2048))) (funext fun (k : Fin 2048) => ?_)
    have hl : hR.lift (ix2 b q) k = ix3 b q k :=
      funext fun a => Fin.ext (by match a with | ⟨0, _⟩ => rfl | ⟨1, _⟩ => rfl | ⟨2, _⟩ => rfl)
    exact (congrArg (val_main_v11 (F := Ideal) x0 x1) hl).trans (s_apply x0 x1 b q k)
  rw [val_main_v14_apply, val_main_v13_apply, val_main_cst_1_apply, h12]
  exact max_eq_right ((Finset.le_fold_max (c := floorVal)).mpr (Or.inl le_rfl))

theorem p_apply (b : Fin 8) (q k : Fin 2048) :
    val_main_v18 (F := Ideal) x0 x1 (ix3 b q k) = weights (scores (proj x0 x1 0 b q) (proj x0 x1 1 b)) k := by
  have hi : idx_main_v15 (idx_main_v16 (ix3 b q k)) = ix2 b q :=
    funext fun a => Fin.ext (by match a with | ⟨0, _⟩ => rfl | ⟨1, _⟩ => rfl)
  rw [val_main_v18_apply, val_main_v17_apply, val_main_v16_apply, val_main_v15_apply, hi, m_apply, s_apply]
  rfl

theorem l_apply (b : Fin 8) (q k : Fin 2048) :
    val_main_v21 (F := Ideal) x0 x1 (ix3 b q k)
      = ∑ k' : Fin 2048, weights (scores (proj x0 x1 0 b q) (proj x0 x1 1 b)) k' := by
  have hi : idx_main_v20 (idx_main_v21 (ix3 b q k)) = ix2 b q :=
    funext fun a => Fin.ext (by match a with | ⟨0, _⟩ => rfl | ⟨1, _⟩ => rfl)
  rw [val_main_v21_apply, val_main_v20_apply, hi, val_main_v19_apply, val_main_cst_2_apply]
  show Ideal.ofBits .f32 0x00000000#32 + _ = _
  rw [Ideal.ofBits_zero_f32, zero_add]
  refine Finset.sum_congr rfl fun k' _ => ?_
  have hl : idx_main_v19 (ix2 b q) k' = ix3 b q k' :=
    funext fun a => Fin.ext (by match a with | ⟨0, _⟩ => rfl | ⟨1, _⟩ => rfl | ⟨2, _⟩ => rfl)
  rw [hl, p_apply]

/-! ## The result -/

theorem out_apply (b : Fin 8) (q : Fin 2048) (d : Fin 512) :
    val_main_v23 (F := Ideal) x0 x1 (ix3 b q d) = attnRow (proj x0 x1 0 b q) (proj x0 x1 1 b) (proj x0 x1 2 b) d := by
  rw [val_main_v23_apply]; unfold attnRow mix
  refine Finset.sum_congr rfl fun k _ => ?_
  have hl : lidx_main_v23 (ix3 b q d) k = ix3 b q k :=
    funext fun a => Fin.ext (by match a with | ⟨0, _⟩ => rfl | ⟨1, _⟩ => rfl | ⟨2, _⟩ => rfl)
  have hr : ridx_main_v23 (ix3 b q d) k = ix3 b k d :=
    funext fun a => Fin.ext (by match a with | ⟨0, _⟩ => rfl | ⟨1, _⟩ => rfl | ⟨2, _⟩ => rfl)
  rw [hl, hr, val_main_v22_apply, p_apply, l_apply, v_apply]
  rfl

/-- THE REFERENCE IS THE SPECIFICATION: its result, as a function of its two arguments, is `G`. -/
theorem result_eq : val_main_v23 (F := Ideal) x0 x1 = G x0 x1 := by
  funext i
  obtain ⟨b, q, d, rfl⟩ : ∃ (b : Fin 8) (q : Fin 2048) (d : Fin 512), i = ix3 b q d := ⟨i 0, i 1, i 2, eq_ix3 i⟩
  rw [G_ix3]
  exact out_apply x0 x1 b q d

end Cert.ReferenceIdeal.RefValue

end
-- ==== Proof.lean ====
/-
  The five claims. Both idealized programs compute one function of the two argument arrays over the extended reals:
  scaled dot-product attention with the keys and values of each batch entry shared by all of its queries
  (`Cert.Attn.G`, Proof/AttnSpec.lean). The kernel reaches it tile by tile: at a batch entry's first query tile it stores
  the entry's key and value rows in scratch memory and keeps them for the entry's other tiles, and every tile is the
  attention rows of its own queries against them (Proof/KernelPieces.lean, Proof/KernelTile.lean,
  Proof/KernelValue.lean). The reference reaches it in one straight line of whole-array operations
  (Proof/RefValue.lean). No law of the extended reals beyond `max ⊥ x = x`-style absorption of the row maximum's second
  starting value and `0 + x = x` is used, so the finiteness of the inputs is never opened. The three frames are the
  programs' runs with the result dropped; the idealization rewrote nothing.
-/
import proofs.«126263_j22789096472642_2_alg».proof.Defs
import proofs.«126263_j22789096472642_2_alg».proof.Proof.KernelValue
import proofs.«126263_j22789096472642_2_alg».proof.Proof.RefValue
import proofs.«126263_j22789096472642_2_alg».proof.Proof.Gen.Kernel
import proofs.«126263_j22789096472642_2_alg».proof.Proof.Gen.Kernel.Skeleton
import proofs.«126263_j22789096472642_2_alg».proof.Proof.Gen.Kernel.Launch
import proofs.«126263_j22789096472642_2_alg».proof.Proof.Gen.Kernel.Points
import proofs.«126263_j22789096472642_2_alg».proof.Proof.Gen.Kernel.Frame
import proofs.«126263_j22789096472642_2_alg».proof.Proof.Gen.KernelIdeal
import proofs.«126263_j22789096472642_2_alg».proof.Proof.Gen.KernelIdeal.Skeleton
import proofs.«126263_j22789096472642_2_alg».proof.Proof.Gen.KernelIdeal.Launch
import proofs.«126263_j22789096472642_2_alg».proof.Proof.Gen.KernelIdeal.Points
import proofs.«126263_j22789096472642_2_alg».proof.Proof.Gen.KernelIdeal.Frame
import proofs.«126263_j22789096472642_2_alg».proof.Proof.Gen.ReferenceIdeal
import proofs.«126263_j22789096472642_2_alg».proof.Proof.Gen.KernelIdeal.Value
import proofs.«126263_j22789096472642_2_alg».proof.Proof.Gen.ReferenceIdeal.Run
import proofs.«126263_j22789096472642_2_alg».proof.Proof.Gen.ReferenceIdeal.Read
import proofs.«126263_j22789096472642_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments both programs end with their result array at `G` of the arguments. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.AttnValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
